-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 115
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .i1⟩
  | .hbm, ⟨74, _⟩ => ⟨S100000, .f32⟩
  | .hbm, ⟨75, _⟩ => ⟨S_, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_call1_v0 : Ref sig .tc := ⟨.hbm, 76, rfl⟩
abbrev main_call1_v1 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The two-layer graph convolution both programs compute, as functions of whole arrays.

  A layer takes node features `h` (one row of 64 numbers per node), and for every edge `e` — the 1,600,000 given edges
  followed by one self loop per node — adds to the row of the edge's target the row of its source scaled by
  `dinv(source) · dinv(target)`, where `dinv(v)` is `deg(v)^(-1/2)` when the in-degree `deg(v)` (self loop counted) is
  positive and `0` otherwise. The whole network is
      `layer (relu (layer (x · W1) + b1) · W2) + b2`.
  Everything that depends only on the edge list (the two index vectors, the degrees, the edge weights) and the
  gather / scale / scatter-add of a layer is written here once, in the host operations' own words, so that the
  two programs' results can be compared without ever opening a gather or a scatter.
-/
import proofs.«111679_j21560735826432_1_alg».proof.Proof.Gen.ReferenceIdeal

noncomputable section

namespace Cert.Gcn

open Cert.ReferenceIdeal Cert.ReferenceIdeal.Gen Idealize.ShloMosaic

variable {F : FTy → Type} [FloatOps F]

/-- The edge list: row 0 the sources, row 1 the targets. -/
abbrev EdgeList (F : FTy → Type) [FloatOps F] : Type := (⟨S2x1600000, .i32⟩ : BufTy).Contents (Elt F)
/-- One end of every edge, self loops included. -/
abbrev Ends (F : FTy → Type) [FloatOps F] : Type := (⟨S1700000, .i32⟩ : BufTy).Contents (Elt F)
/-- One number per node. -/
abbrev PerNode (F : FTy → Type) [FloatOps F] : Type := (⟨S100000, .f32⟩ : BufTy).Contents (Elt F)
/-- One number per edge. -/
abbrev PerEdge (F : FTy → Type) [FloatOps F] : Type := (⟨S1700000, .f32⟩ : BufTy).Contents (Elt F)
/-- Node features: 64 numbers per node. -/
abbrev Feat (F : FTy → Type) [FloatOps F] : Type := (⟨S100000x64, .f32⟩ : BufTy).Contents (Elt F)

/-- The sources of the edges: row 0 of the edge list, then the self loops `0, 1, …, N-1`. -/
def sources (ei : EdgeList F) : Ends F :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The targets of the edges: row 1 of the edge list, then the self loops. -/
def targets (ei : EdgeList F) : Ends F :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- An index vector with its negative entries moved up by the number of nodes (how an array is indexed from its end). -/
def wrapped (v : Ends F) : Ends F :=
  select (cmpi .slt v (broadcastInDim S1700000 ![] bcast_S_S1700000 (constantI S_ 32 0#32))) (addi v (broadcastInDim S1700000 ![] bcast_S_S1700000 (constantI S_ 32 100000#32))) v

/-- The in-degree of every node: ones added up over the edges' targets. -/
def degree (d : Ends F) : PerNode F :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `deg^(-1/2)` where the degree is positive, `0` elsewhere. -/
def invSqrtDegree (d : Ends F) : PerNode F :=
  select (cmpf .ogt (degree d) (broadcastInDim S100000 ![] bcast_S_S100000 (constant S_ .f32 0x00000000#32))) (Host.rsqrt (degree d)) (broadcastInDim S100000 ![] bcast_S_S100000 (id (constant S_ .f32 0x00000000#32)))

/-- The weight of every edge: `dinv` at its source times `dinv` at its target. -/
def edgeWeight (s d : Ends F) : PerEdge F :=
  mulf (Host.gather gather_S100000_S1700000x1_S1700000_n_0_n_n_0_1_1 (invSqrtDegree d) (broadcastInDim S1700000x1 ![0] bcast_S1700000_S1700000x1_0 (wrapped s)))
    (Host.gather gather_S100000_S1700000x1_S1700000_n_0_n_n_0_1_1 (invSqrtDegree d) (broadcastInDim S1700000x1 ![0] bcast_S1700000_S1700000x1_0 (wrapped d)))

/-- One layer's aggregation: every edge adds its source's row, scaled by the edge's weight, to its target's row. -/
def aggregate (s d : Ends F) (h : Feat F) : Feat F :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (wrapped s)))
      (broadcastInDim S1700000x64 ![0, 1] bcast_S1700000x1_S1700000x64_0_1 (broadcastInDim S1700000x1 ![0] bcast_S1700000_S1700000x1_0 (edgeWeight s d))))

/-- A bias vector repeated down the rows. -/
def biasRows (b : (⟨S64, .f32⟩ : BufTy).Contents (Elt F)) : Feat F :=
  broadcastInDim S100000x64 ![0, 1] bcast_S1x64_S100000x64_0_1 (broadcastInDim S1x64 ![1] bcast_S64_S1x64_1 b)

/-- The all-zero features (what relu compares with). -/
def zeroFeat : Feat F :=
  broadcastInDim S100000x64 ![] bcast_S_S100000x64 (constant S_ .f32 0x00000000#32)

/-- The first layer after its nonlinearity: `relu (layer (x · W1) + b1)`, the product `x · W1` given. -/
def hidden (ei : EdgeList F) (xw : Feat F) (b1 : (⟨S64, .f32⟩ : BufTy).Contents (Elt F)) : Feat F :=
  maximumf (addf (aggregate (sources ei) (targets ei) xw) (biasRows b1)) zeroFeat

/-- The second layer: `layer (h · W2) + b2`, the product `h · W2` given. -/
def output (ei : EdgeList F) (hw : Feat F) (b2 : (⟨S64, .f32⟩ : BufTy).Contents (Elt F)) : Feat F :=
  addf (aggregate (sources ei) (targets ei) hw) (biasRows b2)

/-- The whole network, the two matrix products being the host's. -/
def network (x : (⟨S100000x128, .f32⟩ : BufTy).Contents (Elt F)) (ei : EdgeList F) (w1 : (⟨S128x64, .f32⟩ : BufTy).Contents (Elt F))
    (b1 : (⟨S64, .f32⟩ : BufTy).Contents (Elt F)) (w2 : (⟨S64x64, .f32⟩ : BufTy).Contents (Elt F)) (b2 : (⟨S64, .f32⟩ : BufTy).Contents (Elt F)) : Feat F :=
  output ei (Host.dotGeneral dot_S100000x64_S64x64_S100000x64_1_0_0_1_n_n none
    (hidden ei (Host.dotGeneral dot_S100000x128_S128x64_S100000x64_1_0_0_1_n_n none x w1) b1) w2) b2

end Cert.Gcn

end
-- ==== Proof.RefNet.lean ====
/-
  The reference computes the network.

  The reference's run ends with its result at the composed term of its 116 host operations. Read in groups, that
  term is the two-layer network of `Spec.lean` with both matrix products the host's own: the edge ends, the
  degrees, the edge weights and each layer's gather / scale / scatter-add are spelt there exactly as the reference's
  operations spell them, so the two terms are the same term once the definitions are opened.
-/
import proofs.«111679_j21560735826432_1_alg».proof.Proof.RefRun
import proofs.«111679_j21560735826432_1_alg».proof.Proof.Spec

noncomputable section

namespace Cert.Gcn.Ref

open Cert.ReferenceIdeal Cert.ReferenceIdeal.Gen Idealize.ShloMosaic Idealize.ShloMosaic.TcCoe Idealize.SL.Sem

variable {F : FTy → Type} [FloatOps F]

set_option maxRecDepth 8192 in
/-- The reference's result term is the network of its six arguments. -/
theorem result_eq_network (m : (ℓ : Loc nD τ sig) → Buf (Elt F) ℓ) (c : Dev nD) :
    Cert.ReferenceIdeal.ValueP.res_main_v87 (F := F) m c
      = Cert.Gcn.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v87 Cert.Gcn.network Cert.Gcn.output Cert.Gcn.hidden Cert.Gcn.aggregate
    Cert.Gcn.edgeWeight Cert.Gcn.invSqrtDegree Cert.Gcn.degree Cert.Gcn.wrapped Cert.Gcn.sources Cert.Gcn.targets
    Cert.Gcn.biasRows Cert.Gcn.zeroFeat
  rfl

end Cert.Gcn.Ref

end
-- ==== Proof.KernelRun.lean ====
/-
  The idealized kernel's run with its result named.

  The program is four kernel regions among stretches of host operations. Its generated frame follows the contents of
  every buffer from the launch to the return, boundary by boundary, and ends with every buffer the TensorCore keeps
  at the last boundary's contents; the frame claim reads the six arguments off that state. Read off the same state
  here, beside the arguments, is the result array `main_v82`: it ends at the last boundary's contents of that buffer,
  whatever they are — what they are is the next modules' business.
-/
import proofs.«111679_j21560735826432_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents of its buffer and the six arguments as launched. -/
theorem run_named : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Named

end
-- ==== Proof.Stretches.lean ====
/-
  The host operations between the kernel regions, read back.

  Between its four kernel regions the idealized kernel runs the same host operations as the reference: before the
  first region it builds the two index vectors of the edges (the given edges followed by one self loop per node);
  after each matrix product it computes the in-degrees, their inverse square roots, the edge weights, and gathers,
  scales and scatter-adds the product's rows. Read back from the buffer contents at each boundary, every stretch is
  the corresponding function of `Spec.lean` applied to the buffers it reads, and a buffer no operation of a stretch
  writes holds after it what it held before. Nothing here depends on the float values: the statements hold at any
  instance.
-/
import proofs.«111679_j21560735826432_1_alg».proof.Proof.Gen.KernelIdeal.Frame
import proofs.«111679_j21560735826432_1_alg».proof.Proof.Spec
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## Before the first region: the edges' ends, and the arguments untouched -/

/-- The sources of the edges, as the first region finds them. -/
theorem sources_at_entry (c : Dev nD) :
    W1 m ρ c (Proc.devRef .tc main_v3) = Cert.Gcn.sources (F := F) (m ((c.tc : Thread nD τ).loc main_arg1)) := by
  dsimp only [W1, hostOps0]
  after_results_simp
  unfold Cert.Gcn.sources
  rfl

/-- The targets of the edges, as the first region finds them. -/
theorem targets_at_entry (c : Dev nD) :
    W1 m ρ c (Proc.devRef .tc main_v6) = Cert.Gcn.targets (F := F) (m ((c.tc : Thread nD τ).loc main_arg1)) := by
  dsimp only [W1, hostOps0]
  after_results_simp
  unfold Cert.Gcn.targets
  rfl

/-- `main_arg0` is as launched when the first region is entered. -/
theorem main_arg0_at_entry (c : Dev nD) : W1 m ρ c (Proc.devRef .tc main_arg0) = (m ((c.tc : Thread nD τ).loc main_arg0)) := by
  dsimp only [W1, hostOps0]
  after_results_simp <;> rfl

/-- `main_arg2` is as launched when the first region is entered. -/
theorem main_arg2_at_entry (c : Dev nD) : W1 m ρ c (Proc.devRef .tc main_arg2) = (m ((c.tc : Thread nD τ).loc main_arg2)) := by
  dsimp only [W1, hostOps0]
  after_results_simp <;> rfl

/-- `main_arg3` is as launched when the first region is entered. -/
theorem main_arg3_at_entry (c : Dev nD) : W1 m ρ c (Proc.devRef .tc main_arg3) = (m ((c.tc : Thread nD τ).loc main_arg3)) := by
  dsimp only [W1, hostOps0]
  after_results_simp <;> rfl

/-- `main_arg4` is as launched when the first region is entered. -/
theorem main_arg4_at_entry (c : Dev nD) : W1 m ρ c (Proc.devRef .tc main_arg4) = (m ((c.tc : Thread nD τ).loc main_arg4)) := by
  dsimp only [W1, hostOps0]
  after_results_simp <;> rfl

/-- `main_arg5` is as launched when the first region is entered. -/
theorem main_arg5_at_entry (c : Dev nD) : W1 m ρ c (Proc.devRef .tc main_arg5) = (m ((c.tc : Thread nD τ).loc main_arg5)) := by
  dsimp only [W1, hostOps0]
  after_results_simp <;> rfl

/-! ## After the first product: the first layer's aggregation -/

/-- The first layer's aggregated features, from the edges' ends and the product as the first region left them. -/
theorem first_aggregate (c : Dev nD) :
    W5 m ρ c (Proc.devRef .tc main_v43)
      = Cert.Gcn.aggregate (F := F) (W2 m ρ c (Proc.devRef .tc main_v3)) (W2 m ρ c (Proc.devRef .tc main_v6)) (W2 m ρ c (Proc.devRef .tc main_v7)) := by
  dsimp only [W5, W4, W3, hostOps1, hostOps1_1, hostOps1_2]
  after_results_simp
  unfold Cert.Gcn.aggregate Cert.Gcn.edgeWeight Cert.Gcn.invSqrtDegree Cert.Gcn.degree Cert.Gcn.wrapped
  rfl

/-- The first layer's host operations do not write `main_v3`. -/
theorem main_v3_kept_1 (c : Dev nD) : W5 m ρ c (Proc.devRef .tc main_v3) = W2 m ρ c (Proc.devRef .tc main_v3) := by
  dsimp only [W5, W4, W3, hostOps1, hostOps1_1, hostOps1_2]
  after_results_simp <;> rfl

/-- The first layer's host operations do not write `main_v6`. -/
theorem main_v6_kept_1 (c : Dev nD) : W5 m ρ c (Proc.devRef .tc main_v6) = W2 m ρ c (Proc.devRef .tc main_v6) := by
  dsimp only [W5, W4, W3, hostOps1, hostOps1_1, hostOps1_2]
  after_results_simp <;> rfl

/-- The first layer's host operations do not write `main_arg3`. -/
theorem main_arg3_kept_1 (c : Dev nD) : W5 m ρ c (Proc.devRef .tc main_arg3) = W2 m ρ c (Proc.devRef .tc main_arg3) := by
  dsimp only [W5, W4, W3, hostOps1, hostOps1_1, hostOps1_2]
  after_results_simp <;> rfl

/-- The first layer's host operations do not write `main_arg4`. -/
theorem main_arg4_kept_1 (c : Dev nD) : W5 m ρ c (Proc.devRef .tc main_arg4) = W2 m ρ c (Proc.devRef .tc main_arg4) := by
  dsimp only [W5, W4, W3, hostOps1, hostOps1_1, hostOps1_2]
  after_results_simp <;> rfl

/-- The first layer's host operations do not write `main_arg5`. -/
theorem main_arg5_kept_1 (c : Dev nD) : W5 m ρ c (Proc.devRef .tc main_arg5) = W2 m ρ c (Proc.devRef .tc main_arg5) := by
  dsimp only [W5, W4, W3, hostOps1, hostOps1_1, hostOps1_2]
  after_results_simp <;> rfl

/-! ## After the second product: the second layer's aggregation -/

/-- The second layer's aggregated features, from the edges' ends and the product as the third region left them. -/
theorem second_aggregate (c : Dev nD) :
    W10 m ρ c (Proc.devRef .tc main_v81)
      = Cert.Gcn.aggregate (F := F) (W7 m ρ c (Proc.devRef .tc main_v3)) (W7 m ρ c (Proc.devRef .tc main_v6)) (W7 m ρ c (Proc.devRef .tc main_v45)) := by
  dsimp only [W10, W9, W8, hostOps3, hostOps3_1, hostOps3_2]
  after_results_simp
  unfold Cert.Gcn.aggregate Cert.Gcn.edgeWeight Cert.Gcn.invSqrtDegree Cert.Gcn.degree Cert.Gcn.wrapped
  rfl

/-- The second layer's host operations do not write `main_arg5`. -/
theorem main_arg5_kept_3 (c : Dev nD) : W10 m ρ c (Proc.devRef .tc main_arg5) = W7 m ρ c (Proc.devRef .tc main_arg5) := by
  dsimp only [W10, W9, W8, hostOps3, hostOps3_1, hostOps3_2]
  after_results_simp <;> rfl

end Cert.KernelIdeal.Stretches

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibHostProduct.lean ====
/-
  The host's matrix product, read at an entry.

  For operands `[m, k]` and `[k, n]` contracted over the left operand's columns and the right operand's rows, entry
  `(r, c)` of the host's `dot_general` at the ideal values is the sum over the contracted coordinate `h` of
  `lhs (r, h) · rhs (h, c)`: the host's product has no accumulator, a kernel's product into a zero accumulator adds
  zero, so the two are the same sum over the contraction's index set, and that set is re-indexed by its coordinate.
-/
import Idealize.ShloMosaic.Lib.ValueIdx
import Idealize.ShloMosaic.PureOps.Ideal.Laws
import proofs.«111679_j21560735826432_1_alg».proof.Proof.LibMatProduct

noncomputable section

namespace Cert.LibHostProduct

open Idealize.ShloMosaic Idealize.ShloMosaic.ValueIdx

/-- The host's product and a kernel's product into a zero accumulator agree at every entry, whatever the shapes. -/
theorem hostDot_eq_matmul_zero {sl sr so : Shape} {φ₁ φ₂ : FTy} (d : DotDims sl sr so) (prec : Option ContractPrecision)
    (lhs : FVec Ideal sl φ₁) (rhs : FVec Ideal sr φ₂) (j : so.Idx) :
    Host.dotGeneral d prec lhs rhs j = FloatOps.matmul d prec lhs rhs (constant so .f32 0x00000000#32) j :=
  (Ideal.dotGeneral_apply d prec .single lhs rhs j).trans (Ideal.matmul_constant_zero_apply d prec lhs rhs j).symm

/-- Entry `(r, c)` of the host's `lhs · rhs` is `∑ h, lhs (r, h) · rhs (h, c)`. -/
theorem hostDot_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    Host.dotGeneral d prec lhs rhs (ix2 r c) = ∑ h : Fin k, lhs (ix2 r h) * rhs (ix2 h c) :=
  (hostDot_eq_matmul_zero d prec lhs rhs (ix2 r c)).trans
    (Cert.LibMatProduct.matmul_zero_apply d prec hlc hrc hln hrn hlb hrb lhs rhs r c)

end Cert.LibHostProduct

end
-- ==== Proof.FirstProduct.lean ====
/-
  The first kernel region computes x · W1.

  The region's operands are the node features x [100000, 128] and the first layer's weights W1 [128, 64].
  Point `t` of the grid stages rows `5000·t … 5000·t + 4999` of the left operand and the whole right operand,
  multiplies them into a zero accumulator (the rounding to bf16 on the way in is the identity at the ideal values) and
  writes the product back as rows `5000·t …` of the result. Entry `(r, q)` of what is written is therefore
  `∑ h, left (r, h) · right (h, q)`, which is entry `(r, q)` of the host's product of the whole operands; the twenty
  blocks tile the result, so the result array ends as the host's product.
-/
import proofs.«111679_j21560735826432_1_alg».proof.Proof.Gen.KernelIdeal.Frame
import proofs.«111679_j21560735826432_1_alg».proof.Proof.Gen.ReferenceIdeal
import proofs.«111679_j21560735826432_1_alg».proof.Proof.LibMatProduct
import proofs.«111679_j21560735826432_1_alg».proof.Proof.LibHostProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-buffer access, as a constant function. -/
theorem hz : (![0, 0] : Fin 2 → Nat) = fun _ => 0 := funext fun a => by fin_cases a <;> rfl

/-- The printed index maps over the grid: the left operand's and the result's blocks move down the rows with the point,
    the right operand's block stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host's product of the two whole operands, as a function of the result's index. -/
abbrev hostProduct (X : FVec Ideal Cert.ReferenceIdeal.S100000x128 .f32) (W : FVec Ideal Cert.ReferenceIdeal.S128x64 .f32) : FVec Ideal S100000x64 .f32 :=
  Host.dotGeneral Cert.ReferenceIdeal.dot_S100000x128_S128x64_S100000x64_1_0_0_1_n_n none X W

/-- One entry of the body's product is the same entry of the host's product of the whole operands, when the staged
    left block is rows `5000·b …` of the left operand and the staged right block is the right operand. -/
theorem product_entry (X : FVec Ideal Cert.ReferenceIdeal.S100000x128 .f32) (W : FVec Ideal Cert.ReferenceIdeal.S128x64 .f32)
    (x0 : Vec Ideal S5000x128 .f32) (x1 : Vec Ideal S128x64 .f32) (b : ℕ)
    (hx0 : ∀ (p : Fin 5000) (h : Fin 128) (k : S100000x128.Idx), (k 0).val = b * 5000 + p.val → (k 1).val = h.val → x0 (ix2 p h) = X k)
    (hx1 : ∀ (h : Fin 128) (q : Fin 64) (k : S128x64.Idx), (k 0).val = h.val → (k 1).val = q.val → x1 (ix2 h q) = W k)
    (y : S5000x64.Idx) (i : S100000x64.Idx) (hi0 : (i 0).val = b * 5000 + (y 0).val) (hi1 : (i 1).val = (y 1).val) :
    k0_pay1 x0 x1 y = Host.dotGeneral Cert.ReferenceIdeal.dot_S100000x128_S128x64_S100000x64_1_0_0_1_n_n none X W i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = b * 5000 + p.val := hi0
  obtain rfl : q = q' := (Fin.ext hi1).symm
  refine Eq.trans ?_ (Cert.LibHostProduct.hostDot_apply Cert.ReferenceIdeal.dot_S100000x128_S128x64_S100000x64_1_0_0_1_n_n none rfl rfl rfl rfl rfl rfl X W r q).symm
  unfold k0_pay1
  refine (Cert.LibMatProduct.matmul_zero_apply dot_S5000x128_S128x64_S5000x64_1_0_0_1_n_n none rfl rfl rfl rfl rfl rfl _ _ p q).trans ?_
  refine Finset.sum_congr rfl fun h _ => ?_
  show x0 (ix2 p h) * x1 (ix2 h q) = X (ix2 r h) * W (ix2 h q)
  rw [hx0 p h (ix2 r h) hr rfl, hx1 h q (ix2 h q) rfl rfl]

section Region
variable (V : (c : Dev nD) → (b : Ref sig .tc) → Buf (Elt Ideal) ((c : Thread nD τ).loc b))

/-- The left operand's block at point `t` is rows `5000·t …` of its array as the region finds it. -/
theorem left_block (c : Dev nD) (t : Fin cfg0.N) (p : Fin 5000) (h : Fin 128) (k : S100000x128.Idx)
    (hk0 : (k 0).val = t.val * 5000 + p.val) (hk1 : (k 1).val = h.val) :
    (iblk0 V c 0 t : Vec Ideal S5000x128 .f32) (ix2 p h) = (V c main_arg0 : S100000x128.Idx → Elt Ideal .f32) k := by
  obtain ⟨e0, e1, -⟩ := index_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = (k 0).val; rw [e0, hk0]; omega
  | ⟨1, _⟩ => show win0_0.index t (1 : Fin 2) * 128 + 1 * h.val = (k 1).val; rw [e1, hk1]; omega

/-- The right operand's block at every point is its whole array as the region finds it. -/
theorem right_block (c : Dev nD) (t : Fin cfg0.N) (h : Fin 128) (q : Fin 64) (k : S128x64.Idx)
    (hk0 : (k 0).val = h.val) (hk1 : (k 1).val = q.val) :
    (iblk0 V c 1 t : Vec Ideal S128x64 .f32) (ix2 h q) = (V c main_arg2 : S128x64.Idx → Elt Ideal .f32) k := by
  obtain ⟨-, -, e2, e3, -⟩ := index_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * h.val = (k 0).val; rw [e2, hk0]; omega
  | ⟨1, _⟩ => show win0_1.index t (1 : Fin 2) * 64 + 1 * q.val = (k 1).val; rw [e3, hk1]; omega

/-- What point `t` writes back is its block of the host's product of the two arrays. -/
theorem flushed_eq (c : Dev nD) (t : Fin cfg0.N) :
    (dat0 V c).flushed 2 t = ((cfg0.win 2).blk t).view.read (Elt Ideal)
      (hostProduct (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := index_facts t
  funext y
  show k0_pay1 (iblk0 V c 0 t) (iblk0 V c 1 t) y = hostProduct (V c main_arg0) (V c main_arg2) (((cfg0.win 2).blk t).view.emb y)
  refine product_entry (V c main_arg0) (V c main_arg2) (iblk0 V c 0 t) (iblk0 V c 1 t) t.val
    (fun p h k hk0 hk1 => left_block V c t p h k hk0 hk1) (fun h q k hk0 hk1 => right_block V c t h q k hk0 hk1) y _ ?_ ?_
  · show win0_2.index t (0 : Fin 2) * 5000 + 1 * (y 0).val = t.val * 5000 + (y 0).val; rw [e4]; omega
  · show win0_2.index t (1 : Fin 2) * 64 + 1 * (y 1).val = (y 1).val; rw [e5]; omega

end Region

/-- An index of the result is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v7).slice (win0_2.rect t)).set ↔ _
  rw [View.set_slice_whole, Rect.mem_set_unit]
  exact Iff.rfl

/-- Every index of the result is in the block of the point its row falls to. -/
theorem covered (i : S100000x64.Idx) : ∃ t : Fin cfg0.N, (cfg0.win 2).flush t = true ∧ i ∈ ((cfg0.win 2).blk t).view.set := by
  have hN : cfg0.N = 20 := N_0
  have h0 : (i 0).val < 100000 := (i 0).isLt
  have h1 : (i 1).val < 64 := (i 1).isLt
  have ht : (i 0).val / 5000 < cfg0.N := by rw [hN]; omega
  refine ⟨⟨(i 0).val / 5000, ht⟩, flush0_2 _, ?_⟩
  rw [mem_block]
  obtain ⟨-, -, -, -, e4, e5⟩ := index_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The result array after the region is the host's product of the two operand arrays as the region finds them. -/
theorem product (V : (c : Dev nD) → (b : Ref sig .tc) → Buf (Elt Ideal) ((c : Thread nD τ).loc b)) (c : Dev nD) :
    (dat0 V c).arrAt 2 cfg0.N = hostProduct (V c main_arg0) (V c main_arg2) :=
  (dat0 V c).arrAt_eq_of_cover 2 _ (fun t _ => flushed_eq V c t) covered

end Cert.KernelIdeal.FirstProduct

end
-- ==== Proof.FirstBias.lean ====
/-
  The second kernel region adds the first bias and applies relu.

  The region's operands are the first layer's aggregated features [100000, 64] and the bias b1 [64].
  Point `t` of the grid stages rows `5000·t … 5000·t + 4999` of the aggregated features and the whole bias vector,
  adds the bias to every row, takes the maximum with zero and writes the rows back. Entry `(r, q)` of what is written is
  `max (agg (r, q) + bias q) 0`: the same entry of the whole-array expression the reference writes with a bias broadcast down the
  rows and a broadcast zero. The twenty blocks tile the result.
-/
import proofs.«111679_j21560735826432_1_alg».proof.Proof.Gen.KernelIdeal.Frame
import proofs.«111679_j21560735826432_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.FirstBias

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-buffer access, as constant functions. -/
theorem hz : (![0, 0] : Fin 2 → Nat) = fun _ => 0 := funext fun a => by fin_cases a <;> rfl
theorem hz1 : (![0] : Fin 1 → Nat) = fun _ => 0 := funext fun a => by fin_cases a; rfl

/-- The printed index maps over the grid: the features' and the result's blocks move down the rows with the point, the
    bias vector's block stays. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- A bias vector repeated down the rows, read at `(r, q)`, is the vector at `q`. -/
theorem biasRows_apply (b : FVec Ideal Cert.ReferenceIdeal.S64 .f32) (r : Fin 100000) (q : Fin 64) :
    Cert.Gcn.biasRows (F := Ideal) b (ix2 r q) = b (ix1 q) := by
  unfold Cert.Gcn.biasRows
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The body's row of bias at `(p, q)`: the staged vector at `q`. -/
theorem body_bias_apply (x1 : Vec Ideal S64 .f32) (p : Fin 5000) (q : Fin 64) :
    broadcastTo S5000x64 (shapeCast S1x64 (shapeCast S1x64 x1 shapeCasts_S64_S1x64) shapeCasts_S1x64_S1x64) broadcasts_S1x64_S5000x64 (ix2 p q)
      = x1 (ix1 q) := by
  rw [broadcastTo_1b_ab_apply, shapeCast_self, shapeCast_a_1a_apply]

/-- The whole-array expression: the features plus the bias repeated down the rows, then the maximum with zero. -/
abbrev biased (A : FVec Ideal Cert.ReferenceIdeal.S100000x64 .f32) (β : FVec Ideal Cert.ReferenceIdeal.S64 .f32) : FVec Ideal S100000x64 .f32 :=
  maximumf (addf A (Cert.Gcn.biasRows (F := Ideal) β)) (Cert.Gcn.zeroFeat (F := Ideal))

/-- One entry of what the body stores is the same entry of the whole-array expression, when the staged block is rows
    `5000·b …` of the aggregated features and the staged vector is the bias. -/
theorem bias_entry (A : FVec Ideal Cert.ReferenceIdeal.S100000x64 .f32) (β : FVec Ideal Cert.ReferenceIdeal.S64 .f32)
    (x0 : Vec Ideal S5000x64 .f32) (x1 : Vec Ideal S64 .f32) (b : ℕ)
    (hx0 : ∀ (p : Fin 5000) (q : Fin 64) (k : S100000x64.Idx), (k 0).val = b * 5000 + p.val → (k 1).val = q.val → x0 (ix2 p q) = A k)
    (hx1 : ∀ (q : Fin 64) (k : S64.Idx), (k 0).val = q.val → x1 (ix1 q) = β k)
    (y : S5000x64.Idx) (i : S100000x64.Idx) (hi0 : (i 0).val = b * 5000 + (y 0).val) (hi1 : (i 1).val = (y 1).val) :
    k1_pay1 x0 x1 y = (maximumf (addf A (Cert.Gcn.biasRows (F := Ideal) β)) (Cert.Gcn.zeroFeat (F := Ideal))) i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = b * 5000 + p.val := hi0
  obtain rfl : q = q' := (Fin.ext hi1).symm
  have hL : k1_pay1 x0 x1 (ix2 p q) = max (x0 (ix2 p q) + x1 (ix1 q)) (Ideal.ofBits .f32 0x00000000#32) := by
    unfold k1_pay1
    show max ((shapeCast S5000x64 x0 shapeCasts_S5000x64_S5000x64) (ix2 p q) + _) (Ideal.ofBits .f32 0x00000000#32) = _
    rw [shapeCast_self, body_bias_apply]
  rw [hL, hx0 p q (ix2 r q) hr rfl, hx1 q (ix1 q) rfl]
  show _ = max (A (ix2 r q) + Cert.Gcn.biasRows (F := Ideal) β (ix2 r q)) (Cert.Gcn.zeroFeat (F := Ideal) (ix2 r q))
  rw [biasRows_apply]
  rfl

section Region
variable (V : (c : Dev nD) → (b : Ref sig .tc) → Buf (Elt Ideal) ((c : Thread nD τ).loc b))

/-- The features' block at point `t` is rows `5000·t …` of their array as the region finds it. -/
theorem rows_block (c : Dev nD) (t : Fin cfg1.N) (p : Fin 5000) (q : Fin 64) (k : S100000x64.Idx)
    (hk0 : (k 0).val = t.val * 5000 + p.val) (hk1 : (k 1).val = q.val) :
    (iblk1 V c 0 t : Vec Ideal S5000x64 .f32) (ix2 p q) = (V c main_v43 : S100000x64.Idx → Elt Ideal .f32) k := by
  obtain ⟨e0, e1, -⟩ := index_facts t
  unfold iblk1
  rw [View.read_apply]
  show V c main_v43 _ = V c main_v43 _
  refine congrArg (V c main_v43) (funext fun a => Fin.ext ?_)
  match a with
  | ⟨0, _⟩ => show win1_0.index t (0 : Fin 2) * 5000 + 1 * p.val = (k 0).val; rw [e0, hk0]; omega
  | ⟨1, _⟩ => show win1_0.index t (1 : Fin 2) * 64 + 1 * q.val = (k 1).val; rw [e1, hk1]; omega

/-- The bias vector's block at every point is its whole array as the region finds it. -/
theorem bias_block (c : Dev nD) (t : Fin cfg1.N) (q : Fin 64) (k : S64.Idx) (hk0 : (k 0).val = q.val) :
    (iblk1 V c 1 t : Vec Ideal S64 .f32) (ix1 q) = (V c main_arg3 : S64.Idx → Elt Ideal .f32) k := by
  obtain ⟨-, -, e2, -⟩ := index_facts t
  unfold iblk1
  rw [View.read_apply]
  show V c main_arg3 _ = V c main_arg3 _
  refine congrArg (V c main_arg3) (funext fun a => Fin.ext ?_)
  match a with
  | ⟨0, _⟩ => show win1_1.index t (0 : Fin 1) * 64 + 1 * q.val = (k 0).val; rw [e2, hk0]; omega

/-- What point `t` writes back is its block of the whole-array expression. -/
theorem flushed_eq (c : Dev nD) (t : Fin cfg1.N) :
    (dat1 V c).flushed 2 t = ((cfg1.win 2).blk t).view.read (Elt Ideal)
      (biased (V c main_v43) (V c main_arg3)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64) hz1]
  obtain ⟨-, -, -, e4, e5⟩ := index_facts t
  funext y
  show k1_pay1 (iblk1 V c 0 t) (iblk1 V c 1 t) y = biased (V c main_v43) (V c main_arg3) (((cfg1.win 2).blk t).view.emb y)
  refine bias_entry (V c main_v43) (V c main_arg3) (iblk1 V c 0 t) (iblk1 V c 1 t) t.val
    (fun p q k hk0 hk1 => rows_block V c t p q k hk0 hk1) (fun q k hk0 => bias_block V c t q k hk0) y _ ?_ ?_
  · show win1_2.index t (0 : Fin 2) * 5000 + 1 * (y 0).val = t.val * 5000 + (y 0).val; rw [e4]; omega
  · show win1_2.index t (1 : Fin 2) * 64 + 1 * (y 1).val = (y 1).val; rw [e5]; omega

end Region

/-- An index of the result is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v44).slice (win1_2.rect t)).set ↔ _
  rw [View.set_slice_whole, Rect.mem_set_unit]
  exact Iff.rfl

/-- Every index of the result is in the block of the point its row falls to. -/
theorem covered (i : S100000x64.Idx) : ∃ t : Fin cfg1.N, (cfg1.win 2).flush t = true ∧ i ∈ ((cfg1.win 2).blk t).view.set := by
  have hN : cfg1.N = 20 := N_1
  have h0 : (i 0).val < 100000 := (i 0).isLt
  have h1 : (i 1).val < 64 := (i 1).isLt
  have ht : (i 0).val / 5000 < cfg1.N := by rw [hN]; omega
  refine ⟨⟨(i 0).val / 5000, ht⟩, flush1_2 _, ?_⟩
  rw [mem_block]
  obtain ⟨-, -, -, e4, e5⟩ := index_facts ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The result array after the region is the whole-array expression of the two arrays as the region finds them. -/
theorem result (V : (c : Dev nD) → (b : Ref sig .tc) → Buf (Elt Ideal) ((c : Thread nD τ).loc b)) (c : Dev nD) :
    (dat1 V c).arrAt 2 cfg1.N = biased (V c main_v43) (V c main_arg3) :=
  (dat1 V c).arrAt_eq_of_cover 2 _ (fun t _ => flushed_eq V c t) covered

end Cert.KernelIdeal.FirstBias

end
-- ==== Proof.SecondProduct.lean ====
/-
  The third kernel region computes h · W2.

  The region's operands are the hidden features h [100000, 64] the second region left and the second layer's weights W2 [64, 64].
  Point `t` of the grid stages rows `5000·t … 5000·t + 4999` of the left operand and the whole right operand,
  multiplies them into a zero accumulator (the rounding to bf16 on the way in is the identity at the ideal values) and
  writes the product back as rows `5000·t …` of the result. Entry `(r, q)` of what is written is therefore
  `∑ h, left (r, h) · right (h, q)`, which is entry `(r, q)` of the host's product of the whole operands; the twenty
  blocks tile the result, so the result array ends as the host's product.
-/
import proofs.«111679_j21560735826432_1_alg».proof.Proof.Gen.KernelIdeal.Frame
import proofs.«111679_j21560735826432_1_alg».proof.Proof.Gen.ReferenceIdeal
import proofs.«111679_j21560735826432_1_alg».proof.Proof.LibMatProduct
import proofs.«111679_j21560735826432_1_alg».proof.Proof.LibHostProduct
import Idealize.ShloMosaic.Lib.Pipeline.Value
import Idealize.ShloMosaic.Lib.ValueIdx

set_option maxRecDepth 16384

noncomputable section

namespace Cert.KernelIdeal.SecondProduct

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-buffer access, as a constant function. -/
theorem hz : (![0, 0] : Fin 2 → Nat) = fun _ => 0 := funext fun a => by fin_cases a <;> rfl

/-- The printed index maps over the grid: the left operand's and the result's blocks move down the rows with the point,
    the right operand's block stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The host's product of the two whole operands, as a function of the result's index. -/
abbrev hostProduct (X : FVec Ideal Cert.ReferenceIdeal.S100000x64 .f32) (W : FVec Ideal Cert.ReferenceIdeal.S64x64 .f32) : FVec Ideal S100000x64 .f32 :=
  Host.dotGeneral Cert.ReferenceIdeal.dot_S100000x64_S64x64_S100000x64_1_0_0_1_n_n none X W

/-- One entry of the body's product is the same entry of the host's product of the whole operands, when the staged
    left block is rows `5000·b …` of the left operand and the staged right block is the right operand. -/
theorem product_entry (X : FVec Ideal Cert.ReferenceIdeal.S100000x64 .f32) (W : FVec Ideal Cert.ReferenceIdeal.S64x64 .f32)
    (x0 : Vec Ideal S5000x64 .f32) (x1 : Vec Ideal S64x64 .f32) (b : ℕ)
    (hx0 : ∀ (p : Fin 5000) (h : Fin 64) (k : S100000x64.Idx), (k 0).val = b * 5000 + p.val → (k 1).val = h.val → x0 (ix2 p h) = X k)
    (hx1 : ∀ (h : Fin 64) (q : Fin 64) (k : S64x64.Idx), (k 0).val = h.val → (k 1).val = q.val → x1 (ix2 h q) = W k)
    (y : S5000x64.Idx) (i : S100000x64.Idx) (hi0 : (i 0).val = b * 5000 + (y 0).val) (hi1 : (i 1).val = (y 1).val) :
    k2_pay1 x0 x1 y = Host.dotGeneral Cert.ReferenceIdeal.dot_S100000x64_S64x64_S100000x64_1_0_0_1_n_n none X W i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = b * 5000 + p.val := hi0
  obtain rfl : q = q' := (Fin.ext hi1).symm
  refine Eq.trans ?_ (Cert.LibHostProduct.hostDot_apply Cert.ReferenceIdeal.dot_S100000x64_S64x64_S100000x64_1_0_0_1_n_n none rfl rfl rfl rfl rfl rfl X W r q).symm
  unfold k2_pay1
  refine (Cert.LibMatProduct.matmul_zero_apply dot_S5000x64_S64x64_S5000x64_1_0_0_1_n_n none rfl rfl rfl rfl rfl rfl _ _ p q).trans ?_
  refine Finset.sum_congr rfl fun h _ => ?_
  show (shapeCast S5000x64 x0 shapeCasts_S5000x64_S5000x64) (ix2 p h) * x1 (ix2 h q) = X (ix2 r h) * W (ix2 h q)
  rw [shapeCast_self, hx0 p h (ix2 r h) hr rfl, hx1 h q (ix2 h q) rfl rfl]

section Region
variable (V : (c : Dev nD) → (b : Ref sig .tc) → Buf (Elt Ideal) ((c : Thread nD τ).loc b))

/-- The left operand's block at point `t` is rows `5000·t …` of its array as the region finds it. -/
theorem left_block (c : Dev nD) (t : Fin cfg2.N) (p : Fin 5000) (h : Fin 64) (k : S100000x64.Idx)
    (hk0 : (k 0).val = t.val * 5000 + p.val) (hk1 : (k 1).val = h.val) :
    (iblk2 V c 0 t : Vec Ideal S5000x64 .f32) (ix2 p h) = (V c main_v44 : S100000x64.Idx → Elt Ideal .f32) k := by
  obtain ⟨e0, e1, -⟩ := index_facts t
  unfold iblk2
  rw [View.read_apply]
  show V c main_v44 _ = V c main_v44 _
  refine congrArg (V c main_v44) (funext fun a => Fin.ext ?_)
  match a with
  | ⟨0, _⟩ => show win2_0.index t (0 : Fin 2) * 5000 + 1 * p.val = (k 0).val; rw [e0, hk0]; omega
  | ⟨1, _⟩ => show win2_0.index t (1 : Fin 2) * 64 + 1 * h.val = (k 1).val; rw [e1, hk1]; omega

/-- The right operand's block at every point is its whole array as the region finds it. -/
theorem right_block (c : Dev nD) (t : Fin cfg2.N) (h : Fin 64) (q : Fin 64) (k : S64x64.Idx)
    (hk0 : (k 0).val = h.val) (hk1 : (k 1).val = q.val) :
    (iblk2 V c 1 t : Vec Ideal S64x64 .f32) (ix2 h q) = (V c main_arg4 : S64x64.Idx → Elt Ideal .f32) k := by
  obtain ⟨-, -, e2, e3, -⟩ := index_facts t
  unfold iblk2
  rw [View.read_apply]
  show V c main_arg4 _ = V c main_arg4 _
  refine congrArg (V c main_arg4) (funext fun a => Fin.ext ?_)
  match a with
  | ⟨0, _⟩ => show win2_1.index t (0 : Fin 2) * 64 + 1 * h.val = (k 0).val; rw [e2, hk0]; omega
  | ⟨1, _⟩ => show win2_1.index t (1 : Fin 2) * 64 + 1 * q.val = (k 1).val; rw [e3, hk1]; omega

/-- What point `t` writes back is its block of the host's product of the two arrays. -/
theorem flushed_eq (c : Dev nD) (t : Fin cfg2.N) :
    (dat2 V c).flushed 2 t = ((cfg2.win 2).blk t).view.read (Elt Ideal)
      (hostProduct (V c main_v44) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e4, e5⟩ := index_facts t
  funext y
  show k2_pay1 (iblk2 V c 0 t) (iblk2 V c 1 t) y = hostProduct (V c main_v44) (V c main_arg4) (((cfg2.win 2).blk t).view.emb y)
  refine product_entry (V c main_v44) (V c main_arg4) (iblk2 V c 0 t) (iblk2 V c 1 t) t.val
    (fun p h k hk0 hk1 => left_block V c t p h k hk0 hk1) (fun h q k hk0 hk1 => right_block V c t h q k hk0 hk1) y _ ?_ ?_
  · show win2_2.index t (0 : Fin 2) * 5000 + 1 * (y 0).val = t.val * 5000 + (y 0).val; rw [e4]; omega
  · show win2_2.index t (1 : Fin 2) * 64 + 1 * (y 1).val = (y 1).val; rw [e5]; omega

end Region

/-- An index of the result is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every index of the result is in the block of the point its row falls to. -/
theorem covered (i : S100000x64.Idx) : ∃ t : Fin cfg2.N, (cfg2.win 2).flush t = true ∧ i ∈ ((cfg2.win 2).blk t).view.set := by
  have hN : cfg2.N = 20 := N_2
  have h0 : (i 0).val < 100000 := (i 0).isLt
  have h1 : (i 1).val < 64 := (i 1).isLt
  have ht : (i 0).val / 5000 < cfg2.N := by rw [hN]; omega
  refine ⟨⟨(i 0).val / 5000, ht⟩, flush2_2 _, ?_⟩
  rw [mem_block]
  obtain ⟨-, -, -, -, e4, e5⟩ := index_facts ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- The result array after the region is the host's product of the two operand arrays as the region finds them. -/
theorem product (V : (c : Dev nD) → (b : Ref sig .tc) → Buf (Elt Ideal) ((c : Thread nD τ).loc b)) (c : Dev nD) :
    (dat2 V c).arrAt 2 cfg2.N = hostProduct (V c main_v44) (V c main_arg4) :=
  (dat2 V c).arrAt_eq_of_cover 2 _ (fun t _ => flushed_eq V c t) covered

end Cert.KernelIdeal.SecondProduct

end
-- ==== Proof.SecondBias.lean ====
/-
  The fourth kernel region adds the second bias.

  The region's operands are the second layer's aggregated features [100000, 64] and the bias b2 [64].
  Point `t` of the grid stages rows `5000·t … 5000·t + 4999` of the aggregated features and the whole bias vector,
  adds the bias to every row and writes the rows back. Entry `(r, q)` of what is written is
  `agg (r, q) + bias q`: the same entry of the whole-array expression the reference writes with a bias broadcast down the
  rows. The twenty blocks tile the result.
-/
import proofs.«111679_j21560735826432_1_alg».proof.Proof.Gen.KernelIdeal.Frame
import proofs.«111679_j21560735826432_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.SecondBias

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-buffer access, as constant functions. -/
theorem hz : (![0, 0] : Fin 2 → Nat) = fun _ => 0 := funext fun a => by fin_cases a <;> rfl
theorem hz1 : (![0] : Fin 1 → Nat) = fun _ => 0 := funext fun a => by fin_cases a; rfl

/-- The printed index maps over the grid: the features' and the result's blocks move down the rows with the point, the
    bias vector's block stays. -/
theorem index_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- A bias vector repeated down the rows, read at `(r, q)`, is the vector at `q`. -/
theorem biasRows_apply (b : FVec Ideal Cert.ReferenceIdeal.S64 .f32) (r : Fin 100000) (q : Fin 64) :
    Cert.Gcn.biasRows (F := Ideal) b (ix2 r q) = b (ix1 q) := by
  unfold Cert.Gcn.biasRows
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The body's row of bias at `(p, q)`: the staged vector at `q`. -/
theorem body_bias_apply (x1 : Vec Ideal S64 .f32) (p : Fin 5000) (q : Fin 64) :
    broadcastTo S5000x64 (shapeCast S1x64 (shapeCast S1x64 x1 shapeCasts_S64_S1x64) shapeCasts_S1x64_S1x64) broadcasts_S1x64_S5000x64 (ix2 p q)
      = x1 (ix1 q) := by
  rw [broadcastTo_1b_ab_apply, shapeCast_self, shapeCast_a_1a_apply]

/-- The whole-array expression: the features plus the bias repeated down the rows. -/
abbrev biased (A : FVec Ideal Cert.ReferenceIdeal.S100000x64 .f32) (β : FVec Ideal Cert.ReferenceIdeal.S64 .f32) : FVec Ideal S100000x64 .f32 :=
  addf A (Cert.Gcn.biasRows (F := Ideal) β)

/-- One entry of what the body stores is the same entry of the whole-array expression, when the staged block is rows
    `5000·b …` of the aggregated features and the staged vector is the bias. -/
theorem bias_entry (A : FVec Ideal Cert.ReferenceIdeal.S100000x64 .f32) (β : FVec Ideal Cert.ReferenceIdeal.S64 .f32)
    (x0 : Vec Ideal S5000x64 .f32) (x1 : Vec Ideal S64 .f32) (b : ℕ)
    (hx0 : ∀ (p : Fin 5000) (q : Fin 64) (k : S100000x64.Idx), (k 0).val = b * 5000 + p.val → (k 1).val = q.val → x0 (ix2 p q) = A k)
    (hx1 : ∀ (q : Fin 64) (k : S64.Idx), (k 0).val = q.val → x1 (ix1 q) = β k)
    (y : S5000x64.Idx) (i : S100000x64.Idx) (hi0 : (i 0).val = b * 5000 + (y 0).val) (hi1 : (i 1).val = (y 1).val) :
    k3_pay1 x0 x1 y = (addf A (Cert.Gcn.biasRows (F := Ideal) β)) i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = b * 5000 + p.val := hi0
  obtain rfl : q = q' := (Fin.ext hi1).symm
  have hL : k3_pay1 x0 x1 (ix2 p q) = x0 (ix2 p q) + x1 (ix1 q) := by
    unfold k3_pay1
    show (shapeCast S5000x64 x0 shapeCasts_S5000x64_S5000x64) (ix2 p q) + _ = _
    rw [shapeCast_self, body_bias_apply]
  rw [hL, hx0 p q (ix2 r q) hr rfl, hx1 q (ix1 q) rfl]
  show _ = A (ix2 r q) + Cert.Gcn.biasRows (F := Ideal) β (ix2 r q)
  rw [biasRows_apply]

section Region
variable (V : (c : Dev nD) → (b : Ref sig .tc) → Buf (Elt Ideal) ((c : Thread nD τ).loc b))

/-- The features' block at point `t` is rows `5000·t …` of their array as the region finds it. -/
theorem rows_block (c : Dev nD) (t : Fin cfg3.N) (p : Fin 5000) (q : Fin 64) (k : S100000x64.Idx)
    (hk0 : (k 0).val = t.val * 5000 + p.val) (hk1 : (k 1).val = q.val) :
    (iblk3 V c 0 t : Vec Ideal S5000x64 .f32) (ix2 p q) = (V c main_v81 : S100000x64.Idx → Elt Ideal .f32) k := by
  obtain ⟨e0, e1, -⟩ := index_facts t
  unfold iblk3
  rw [View.read_apply]
  show V c main_v81 _ = V c main_v81 _
  refine congrArg (V c main_v81) (funext fun a => Fin.ext ?_)
  match a with
  | ⟨0, _⟩ => show win3_0.index t (0 : Fin 2) * 5000 + 1 * p.val = (k 0).val; rw [e0, hk0]; omega
  | ⟨1, _⟩ => show win3_0.index t (1 : Fin 2) * 64 + 1 * q.val = (k 1).val; rw [e1, hk1]; omega

/-- The bias vector's block at every point is its whole array as the region finds it. -/
theorem bias_block (c : Dev nD) (t : Fin cfg3.N) (q : Fin 64) (k : S64.Idx) (hk0 : (k 0).val = q.val) :
    (iblk3 V c 1 t : Vec Ideal S64 .f32) (ix1 q) = (V c main_arg5 : S64.Idx → Elt Ideal .f32) k := by
  obtain ⟨-, -, e2, -⟩ := index_facts t
  unfold iblk3
  rw [View.read_apply]
  show V c main_arg5 _ = V c main_arg5 _
  refine congrArg (V c main_arg5) (funext fun a => Fin.ext ?_)
  match a with
  | ⟨0, _⟩ => show win3_1.index t (0 : Fin 1) * 64 + 1 * q.val = (k 0).val; rw [e2, hk0]; omega

/-- What point `t` writes back is its block of the whole-array expression. -/
theorem flushed_eq (c : Dev nD) (t : Fin cfg3.N) :
    (dat3 V c).flushed 2 t = ((cfg3.win 2).blk t).view.read (Elt Ideal)
      (biased (V c main_v81) (V c main_arg5)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64) hz1]
  obtain ⟨-, -, -, e4, e5⟩ := index_facts t
  funext y
  show k3_pay1 (iblk3 V c 0 t) (iblk3 V c 1 t) y = biased (V c main_v81) (V c main_arg5) (((cfg3.win 2).blk t).view.emb y)
  refine bias_entry (V c main_v81) (V c main_arg5) (iblk3 V c 0 t) (iblk3 V c 1 t) t.val
    (fun p q k hk0 hk1 => rows_block V c t p q k hk0 hk1) (fun q k hk0 => bias_block V c t q k hk0) y _ ?_ ?_
  · show win3_2.index t (0 : Fin 2) * 5000 + 1 * (y 0).val = t.val * 5000 + (y 0).val; rw [e4]; omega
  · show win3_2.index t (1 : Fin 2) * 64 + 1 * (y 1).val = (y 1).val; rw [e5]; omega

end Region

/-- An index of the result is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v82).slice (win3_2.rect t)).set ↔ _
  rw [View.set_slice_whole, Rect.mem_set_unit]
  exact Iff.rfl

/-- Every index of the result is in the block of the point its row falls to. -/
theorem covered (i : S100000x64.Idx) : ∃ t : Fin cfg3.N, (cfg3.win 2).flush t = true ∧ i ∈ ((cfg3.win 2).blk t).view.set := by
  have hN : cfg3.N = 20 := N_3
  have h0 : (i 0).val < 100000 := (i 0).isLt
  have h1 : (i 1).val < 64 := (i 1).isLt
  have ht : (i 0).val / 5000 < cfg3.N := by rw [hN]; omega
  refine ⟨⟨(i 0).val / 5000, ht⟩, flush3_2 _, ?_⟩
  rw [mem_block]
  obtain ⟨-, -, -, e4, e5⟩ := index_facts ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

/-- The result array after the region is the whole-array expression of the two arrays as the region finds them. -/
theorem result (V : (c : Dev nD) → (b : Ref sig .tc) → Buf (Elt Ideal) ((c : Thread nD τ).loc b)) (c : Dev nD) :
    (dat3 V c).arrAt 2 cfg3.N = biased (V c main_v81) (V c main_arg5) :=
  (dat3 V c).arrAt_eq_of_cover 2 _ (fun t _ => flushed_eq V c t) covered

end Cert.KernelIdeal.SecondBias

end
-- ==== Proof.KernelNet.lean ====
/-
  The idealized kernel computes the network.

  The kernel's run leaves its result at the last boundary's contents of the result buffer. Walking the boundaries in
  order — the first region's entry, its exit, the first layer's host operations, the second region, the third, the
  second layer's host operations, the fourth region — each step is one fact already proved: a region leaves the host's
  product, or the features plus a bias row, of the arrays it found; a host stretch leaves the aggregation of the
  buffers it read; and every other buffer needed later (the edges' ends, the biases, the second weights) is written by
  nothing in between. At the end the result buffer holds the two-layer network of the six arguments as launched.
-/
import proofs.«111679_j21560735826432_1_alg».proof.Proof.Gen.KernelIdeal.Frame
import proofs.«111679_j21560735826432_1_alg».proof.Proof.Spec
import proofs.«111679_j21560735826432_1_alg».proof.Proof.Stretches
import proofs.«111679_j21560735826432_1_alg».proof.Proof.FirstProduct
import proofs.«111679_j21560735826432_1_alg».proof.Proof.FirstBias
import proofs.«111679_j21560735826432_1_alg».proof.Proof.SecondProduct
import proofs.«111679_j21560735826432_1_alg».proof.Proof.SecondBias

set_option maxRecDepth 16384

noncomputable section

namespace Cert.KernelIdeal.Net

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-! ## At the first region's exit -/

/-- The first region leaves `x · W1`. -/
theorem product_1 (c : Dev nD) : W2 m ρ c (Proc.devRef .tc main_v7) = (Host.dotGeneral (F := Ideal) (φ₁ := .f32) (φ₂ := .f32) Cert.ReferenceIdeal.dot_S100000x128_S128x64_S100000x64_1_0_0_1_n_n none (m ((c.tc : Thread nD τ).loc main_arg0)) (m ((c.tc : Thread nD τ).loc main_arg2))) := by
  refine (W2_arr m ρ c 2).trans ((Cert.KernelIdeal.FirstProduct.product (V1 m ρ) c).trans ?_)
  show Host.dotGeneral (F := Ideal) (φ₁ := .f32) (φ₂ := .f32) Cert.ReferenceIdeal.dot_S100000x128_S128x64_S100000x64_1_0_0_1_n_n none (W1 m ρ c (Proc.devRef .tc main_arg0)) (W1 m ρ c (Proc.devRef .tc main_arg2)) = _
  rw [Cert.KernelIdeal.Stretches.main_arg0_at_entry m ρ c, Cert.KernelIdeal.Stretches.main_arg2_at_entry m ρ c]

theorem sources_2 (c : Dev nD) : W2 m ρ c (Proc.devRef .tc main_v3) = (Cert.Gcn.sources (F := Ideal) (m ((c.tc : Thread nD τ).loc main_arg1))) :=
  (W2_of_ne m ρ c main_v3 (by decide)).trans (Cert.KernelIdeal.Stretches.sources_at_entry m ρ c)
theorem targets_2 (c : Dev nD) : W2 m ρ c (Proc.devRef .tc main_v6) = (Cert.Gcn.targets (F := Ideal) (m ((c.tc : Thread nD τ).loc main_arg1))) :=
  (W2_of_ne m ρ c main_v6 (by decide)).trans (Cert.KernelIdeal.Stretches.targets_at_entry m ρ c)
theorem bias1_2 (c : Dev nD) : W2 m ρ c (Proc.devRef .tc main_arg3) = (m ((c.tc : Thread nD τ).loc main_arg3)) :=
  (W2_of_ne m ρ c main_arg3 (by decide)).trans (Cert.KernelIdeal.Stretches.main_arg3_at_entry m ρ c)
theorem weights2_2 (c : Dev nD) : W2 m ρ c (Proc.devRef .tc main_arg4) = (m ((c.tc : Thread nD τ).loc main_arg4)) :=
  (W2_of_ne m ρ c main_arg4 (by decide)).trans (Cert.KernelIdeal.Stretches.main_arg4_at_entry m ρ c)
theorem bias2_2 (c : Dev nD) : W2 m ρ c (Proc.devRef .tc main_arg5) = (m ((c.tc : Thread nD τ).loc main_arg5)) :=
  (W2_of_ne m ρ c main_arg5 (by decide)).trans (Cert.KernelIdeal.Stretches.main_arg5_at_entry m ρ c)

/-! ## After the first layer's host operations -/

/-- The first layer's aggregation of `x · W1`. -/
theorem aggregate_1 (c : Dev nD) : W5 m ρ c (Proc.devRef .tc main_v43) = Cert.Gcn.aggregate (F := Ideal) (Cert.Gcn.sources (F := Ideal) (m ((c.tc : Thread nD τ).loc main_arg1))) (Cert.Gcn.targets (F := Ideal) (m ((c.tc : Thread nD τ).loc main_arg1))) (Host.dotGeneral (F := Ideal) (φ₁ := .f32) (φ₂ := .f32) Cert.ReferenceIdeal.dot_S100000x128_S128x64_S100000x64_1_0_0_1_n_n none (m ((c.tc : Thread nD τ).loc main_arg0)) (m ((c.tc : Thread nD τ).loc main_arg2))) := by
  rw [Cert.KernelIdeal.Stretches.first_aggregate m ρ c, sources_2 m ρ c, targets_2 m ρ c, product_1 m ρ c]

theorem sources_5 (c : Dev nD) : W5 m ρ c (Proc.devRef .tc main_v3) = (Cert.Gcn.sources (F := Ideal) (m ((c.tc : Thread nD τ).loc main_arg1))) := (Cert.KernelIdeal.Stretches.main_v3_kept_1 m ρ c).trans (sources_2 m ρ c)
theorem targets_5 (c : Dev nD) : W5 m ρ c (Proc.devRef .tc main_v6) = (Cert.Gcn.targets (F := Ideal) (m ((c.tc : Thread nD τ).loc main_arg1))) := (Cert.KernelIdeal.Stretches.main_v6_kept_1 m ρ c).trans (targets_2 m ρ c)
theorem bias1_5 (c : Dev nD) : W5 m ρ c (Proc.devRef .tc main_arg3) = (m ((c.tc : Thread nD τ).loc main_arg3)) := (Cert.KernelIdeal.Stretches.main_arg3_kept_1 m ρ c).trans (bias1_2 m ρ c)
theorem weights2_5 (c : Dev nD) : W5 m ρ c (Proc.devRef .tc main_arg4) = (m ((c.tc : Thread nD τ).loc main_arg4)) := (Cert.KernelIdeal.Stretches.main_arg4_kept_1 m ρ c).trans (weights2_2 m ρ c)
theorem bias2_5 (c : Dev nD) : W5 m ρ c (Proc.devRef .tc main_arg5) = (m ((c.tc : Thread nD τ).loc main_arg5)) := (Cert.KernelIdeal.Stretches.main_arg5_kept_1 m ρ c).trans (bias2_2 m ρ c)

/-! ## At the second region's exit -/

/-- The second region leaves the hidden features `relu (layer (x · W1) + b1)`. -/
theorem hidden_6 (c : Dev nD) : W6 m ρ c (Proc.devRef .tc main_v44) = (Cert.Gcn.hidden (F := Ideal) (m ((c.tc : Thread nD τ).loc main_arg1)) (Host.dotGeneral (F := Ideal) (φ₁ := .f32) (φ₂ := .f32) Cert.ReferenceIdeal.dot_S100000x128_S128x64_S100000x64_1_0_0_1_n_n none (m ((c.tc : Thread nD τ).loc main_arg0)) (m ((c.tc : Thread nD τ).loc main_arg2))) (m ((c.tc : Thread nD τ).loc main_arg3))) := by
  refine (W6_arr m ρ c 2).trans ((Cert.KernelIdeal.FirstBias.result (V5 m ρ) c).trans ?_)
  show Cert.KernelIdeal.FirstBias.biased (W5 m ρ c (Proc.devRef .tc main_v43)) (W5 m ρ c (Proc.devRef .tc main_arg3)) = _
  rw [aggregate_1 m ρ c, bias1_5 m ρ c]
  rfl

theorem sources_6 (c : Dev nD) : W6 m ρ c (Proc.devRef .tc main_v3) = (Cert.Gcn.sources (F := Ideal) (m ((c.tc : Thread nD τ).loc main_arg1))) :=
  (W6_of_ne m ρ c main_v3 (by decide)).trans (sources_5 m ρ c)
theorem targets_6 (c : Dev nD) : W6 m ρ c (Proc.devRef .tc main_v6) = (Cert.Gcn.targets (F := Ideal) (m ((c.tc : Thread nD τ).loc main_arg1))) :=
  (W6_of_ne m ρ c main_v6 (by decide)).trans (targets_5 m ρ c)
theorem weights2_6 (c : Dev nD) : W6 m ρ c (Proc.devRef .tc main_arg4) = (m ((c.tc : Thread nD τ).loc main_arg4)) :=
  (W6_of_ne m ρ c main_arg4 (by decide)).trans (weights2_5 m ρ c)
theorem bias2_6 (c : Dev nD) : W6 m ρ c (Proc.devRef .tc main_arg5) = (m ((c.tc : Thread nD τ).loc main_arg5)) :=
  (W6_of_ne m ρ c main_arg5 (by decide)).trans (bias2_5 m ρ c)

/-! ## At the third region's exit -/

/-- The third region leaves `h · W2`. -/
theorem product_2 (c : Dev nD) : W7 m ρ c (Proc.devRef .tc main_v45) = (Host.dotGeneral (F := Ideal) (φ₁ := .f32) (φ₂ := .f32) Cert.ReferenceIdeal.dot_S100000x64_S64x64_S100000x64_1_0_0_1_n_n none (Cert.Gcn.hidden (F := Ideal) (m ((c.tc : Thread nD τ).loc main_arg1)) (Host.dotGeneral (F := Ideal) (φ₁ := .f32) (φ₂ := .f32) Cert.ReferenceIdeal.dot_S100000x128_S128x64_S100000x64_1_0_0_1_n_n none (m ((c.tc : Thread nD τ).loc main_arg0)) (m ((c.tc : Thread nD τ).loc main_arg2))) (m ((c.tc : Thread nD τ).loc main_arg3))) (m ((c.tc : Thread nD τ).loc main_arg4))) := by
  refine (W7_arr m ρ c 2).trans ((Cert.KernelIdeal.SecondProduct.product (V6 m ρ) c).trans ?_)
  show Host.dotGeneral (F := Ideal) (φ₁ := .f32) (φ₂ := .f32) Cert.ReferenceIdeal.dot_S100000x64_S64x64_S100000x64_1_0_0_1_n_n none (W6 m ρ c (Proc.devRef .tc main_v44)) (W6 m ρ c (Proc.devRef .tc main_arg4)) = _
  rw [hidden_6 m ρ c, weights2_6 m ρ c]

theorem sources_7 (c : Dev nD) : W7 m ρ c (Proc.devRef .tc main_v3) = (Cert.Gcn.sources (F := Ideal) (m ((c.tc : Thread nD τ).loc main_arg1))) :=
  (W7_of_ne m ρ c main_v3 (by decide)).trans (sources_6 m ρ c)
theorem targets_7 (c : Dev nD) : W7 m ρ c (Proc.devRef .tc main_v6) = (Cert.Gcn.targets (F := Ideal) (m ((c.tc : Thread nD τ).loc main_arg1))) :=
  (W7_of_ne m ρ c main_v6 (by decide)).trans (targets_6 m ρ c)
theorem bias2_7 (c : Dev nD) : W7 m ρ c (Proc.devRef .tc main_arg5) = (m ((c.tc : Thread nD τ).loc main_arg5)) :=
  (W7_of_ne m ρ c main_arg5 (by decide)).trans (bias2_6 m ρ c)

/-! ## After the second layer's host operations -/

/-- The second layer's aggregation of `h · W2`. -/
theorem aggregate_2 (c : Dev nD) : W10 m ρ c (Proc.devRef .tc main_v81) = Cert.Gcn.aggregate (F := Ideal) (Cert.Gcn.sources (F := Ideal) (m ((c.tc : Thread nD τ).loc main_arg1))) (Cert.Gcn.targets (F := Ideal) (m ((c.tc : Thread nD τ).loc main_arg1))) (Host.dotGeneral (F := Ideal) (φ₁ := .f32) (φ₂ := .f32) Cert.ReferenceIdeal.dot_S100000x64_S64x64_S100000x64_1_0_0_1_n_n none (Cert.Gcn.hidden (F := Ideal) (m ((c.tc : Thread nD τ).loc main_arg1)) (Host.dotGeneral (F := Ideal) (φ₁ := .f32) (φ₂ := .f32) Cert.ReferenceIdeal.dot_S100000x128_S128x64_S100000x64_1_0_0_1_n_n none (m ((c.tc : Thread nD τ).loc main_arg0)) (m ((c.tc : Thread nD τ).loc main_arg2))) (m ((c.tc : Thread nD τ).loc main_arg3))) (m ((c.tc : Thread nD τ).loc main_arg4))) := by
  rw [Cert.KernelIdeal.Stretches.second_aggregate m ρ c, sources_7 m ρ c, targets_7 m ρ c, product_2 m ρ c]

theorem bias2_10 (c : Dev nD) : W10 m ρ c (Proc.devRef .tc main_arg5) = (m ((c.tc : Thread nD τ).loc main_arg5)) := (Cert.KernelIdeal.Stretches.main_arg5_kept_3 m ρ c).trans (bias2_7 m ρ c)

/-! ## At the return -/

/-- The result buffer ends at the network of the six arguments as launched. -/
theorem result_eq_network (c : Dev nD) :
    W11 m ρ c (Proc.devRef .tc main_v82) = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W11_arr m ρ c 2).trans ((Cert.KernelIdeal.SecondBias.result (V10 m ρ) c).trans ?_)
  show Cert.KernelIdeal.SecondBias.biased (W10 m ρ c (Proc.devRef .tc main_v81)) (W10 m ρ c (Proc.devRef .tc main_arg5)) = _
  rw [aggregate_2 m ρ c, bias2_10 m ρ c]
  rfl

end Cert.KernelIdeal.Net

end
-- ==== Proof.lean ====
/-
  A two-layer graph convolution on 100,000 nodes and 1,600,000 edges: the kernel against its jnp reference.

  Both programs compute, at the ideal values,
      `layer (relu (layer (x · W1) + b1) · W2) + b2`,
  where `layer h` adds, for every edge (the given ones and one self loop per node), the source's row of `h` scaled by
  `dinv(source) · dinv(target)` to the target's row, `dinv = deg^(-1/2)` where the in-degree is positive and `0`
  elsewhere. The reference does everything on the host. The kernel runs the two matrix products and the two bias
  additions (the first with its relu) as kernel regions over blocks of 5,000 rows, and the degree, weight, gather and
  scatter-add steps as the same host operations, in the same order, with the same constants.

  What differs is only how the regular steps are carried out, and none of it is a difference at the ideal values: a
  product of blocks rounded to bf16 into a zero accumulator is the exact sum `∑ h, left (r, h) · right (h, q)`, the
  entry of the host's product; the blocks tile the arrays; a bias broadcast inside a block is the bias broadcast down
  the whole array. No law used needs an entry to be finite (no distributivity, no cancelling: only that adding zero
  changes nothing and that both sides are the same sum), so the precondition is never opened. The irregular steps are
  never opened either: they are carried on both sides as the same functions (`Spec.lean`) of equal arguments.

  The modules: `Spec` (the network as functions of whole arrays), `RefRun` and `RefNet` (the reference's run, and its
  result is the network), `KernelRun` (the kernel's run with its result named), `FirstProduct`, `FirstBias`,
  `SecondProduct`, `SecondBias` (what each kernel region leaves in its result array), `Stretches` (the host operations
  between the regions, read back), `KernelNet` (boundary by boundary, the kernel's result is the network).
-/
import proofs.«111679_j21560735826432_1_alg».proof.Defs
import proofs.«111679_j21560735826432_1_alg».proof.Proof.Gen.Kernel
import proofs.«111679_j21560735826432_1_alg».proof.Proof.Gen.Kernel.Frame
import proofs.«111679_j21560735826432_1_alg».proof.Proof.Gen.KernelIdeal
import proofs.«111679_j21560735826432_1_alg».proof.Proof.Gen.KernelIdeal.Frame
import proofs.«111679_j21560735826432_1_alg».proof.Proof.Gen.ReferenceIdeal
import proofs.«111679_j21560735826432_1_alg».proof.Proof.Gen.Pre_finite_inputs
import proofs.«111679_j21560735826432_1_alg».proof.Proof.RefRun
import proofs.«111679_j21560735826432_1_alg».proof.Proof.RefNet
import proofs.«111679_j21560735826432_1_alg».proof.Proof.KernelRun
import proofs.«111679_j21560735826432_1_alg».proof.Proof.KernelNet
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel: nothing to preserve. -/
theorem preserves : Cert.preserves_Kernel_KernelIdeal := trivial

/-- From memories agreeing on the six arguments both programs end with the network of those arguments in their
    result arrays: the kernel boundary by boundary (`KernelNet`), the reference by its composed term (`RefNet`). -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Net.result_eq_network m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.Ref.result_eq_network m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
